-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x256 : Shape := ⟨3, ![2048, 32, 256]⟩
abbrev S2048x80x256 : Shape := ⟨3, ![2048, 80, 256]⟩
abbrev S2048x80 : Shape := ⟨2, ![2048, 80]⟩
abbrev S2048x256 : Shape := ⟨2, ![2048, 256]⟩
abbrev S_ : Shape := ⟨0, ![]⟩

class Facts : Prop where
  bcast_S_S2048x32x256 : S_.BroadcastsInDim S2048x32x256 (![] : Fin 0 → Fin S2048x32x256.rank)
  reducesTo_S2048x32x256_S_d0_1_2 : S2048x32x256.ReducesTo [0, 1, 2] S_
  h_S_ : 0 < S_.numel
  bcast_S_S2048x80x256 : S_.BroadcastsInDim S2048x80x256 (![] : Fin 0 → Fin S2048x80x256.rank)
  reducesTo_S2048x80x256_S_d0_1_2 : S2048x80x256.ReducesTo [0, 1, 2] S_
  bcast_S_S2048x80 : S_.BroadcastsInDim S2048x80 (![] : Fin 0 → Fin S2048x80.rank)
  reducesTo_S2048x80_S_d0_1 : S2048x80.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x80 .f32) (main_arg5 : FVec F S2048x256 .f32) (main_arg6 : FVec F S2048x80 .f32) (main_v13 : IVec S_ 1) (main_v16 : IVec S2048x80 1) : IVec S_ 1 :=
  let main_c_5 : IVec S_ 1 := constantI S_ 1 1#1
  let main_v17 : IVec S_ 1 := (fun x v => Host.reduce IntOp.andi x v reducesTo_S2048x80_S_d0_1 h_S_) main_v16 main_c_5
  let main_v18 : IVec S_ 1 := andi main_v13 main_v17
  let main_v19 : FVec F S2048x80 .f32 := Host.absf main_arg4
  let main_cst_6 : FVec F S_ .f32 := constant S_ .f32 0x7F800000#32
  let main_v20 : FVec F S2048x80 .f32 := broadcastInDim S2048x80 ![] bcast_S_S2048x80 main_cst_6
  let main_v21 : IVec S2048x80 1 := cmpf .olt main_v19 main_v20
  let main_c_7 : IVec S_ 1 := constantI S_ 1 1#1
  let main_v22 : IVec S_ 1 := (fun x v => Host.reduce IntOp.andi x v reducesTo_S2048x80_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S2048x80 .f32 := Host.absf main_arg6
  let main_cst_10 : FVec F S_ .f32 := constant S_ .f32 0x7F800000#32
  let main_v30 : FVec F S2048x80 .f32 := broadcastInDim S2048x80 ![] bcast_S_S2048x80 main_cst_10
  let main_v31 : IVec S2048x80 1 := cmpf .olt main_v29 main_v30
  let main_c_11 : IVec S_ 1 := constantI S_ 1 1#1
  let main_v32 : IVec S_ 1 := (fun x v => Host.reduce IntOp.andi x v reducesTo_S2048x80_S_d0_1 h_S_) main_v31 main_c_11
  let main_v33 : IVec S_ 1 := andi main_v28 main_v32
  main_v33

def fn {F : FTy → Type} [FloatOps F] (main_arg0 : FVec F S2048x32x256 .f32) (main_arg1 : FVec F S2048x80x256 .f32) (main_arg2 : FVec F S2048x80 .f32) (main_arg3 : FVec F S2048x80 .f32) (main_arg4 : FVec F S2048x80 .f32) (main_arg5 : FVec F S2048x256 .f32) (main_arg6 : FVec F S2048x80 .f32) : IVec S_ 1 :=
  let main_v0 : FVec F S2048x32x256 .f32 := Host.absf main_arg0
  let main_cst : FVec F S_ .f32 := constant S_ .f32 0x7F800000#32
  let main_v1 : FVec F S2048x32x256 .f32 := broadcastInDim S2048x32x256 ![] bcast_S_S2048x32x256 main_cst
  let main_v2 : IVec S2048x32x256 1 := cmpf .olt main_v0 main_v1
  let main_c : IVec S_ 1 := constantI S_ 1 1#1
  let main_v3 : IVec S_ 1 := (fun x v => Host.reduce IntOp.andi x v reducesTo_S2048x32x256_S_d0_1_2 h_S_) main_v2 main_c
  let main_v4 : FVec F S2048x80x256 .f32 := Host.absf main_arg1
  let main_cst_0 : FVec F S_ .f32 := constant S_ .f32 0x7F800000#32
  let main_v5 : FVec F S2048x80x256 .f32 := broadcastInDim S2048x80x256 ![] bcast_S_S2048x80x256 main_cst_0
  let main_v6 : IVec S2048x80x256 1 := cmpf .olt main_v4 main_v5
  let main_c_1 : IVec S_ 1 := constantI S_ 1 1#1
  let main_v7 : IVec S_ 1 := (fun x v => Host.reduce IntOp.andi x v reducesTo_S2048x80x256_S_d0_1_2 h_S_) main_v6 main_c_1
  let main_v8 : IVec S_ 1 := andi main_v3 main_v7
  let main_v9 : FVec F S2048x80 .f32 := Host.absf main_arg2
  let main_cst_2 : FVec F S_ .f32 := constant S_ .f32 0x7F800000#32
  let main_v10 : FVec F S2048x80 .f32 := broadcastInDim S2048x80 ![] bcast_S_S2048x80 main_cst_2
  let main_v11 : IVec S2048x80 1 := cmpf .olt main_v9 main_v10
  let main_c_3 : IVec S_ 1 := constantI S_ 1 1#1
  let main_v12 : IVec S_ 1 := (fun x v => Host.reduce IntOp.andi x v reducesTo_S2048x80_S_d0_1 h_S_) main_v11 main_c_3
  let main_v13 : IVec S_ 1 := andi main_v8 main_v12
  let main_v14 : FVec F S2048x80 .f32 := Host.absf main_arg3
  let main_cst_4 : FVec F S_ .f32 := constant S_ .f32 0x7F800000#32
  let main_v15 : FVec F S2048x80 .f32 := broadcastInDim S2048x80 ![] bcast_S_S2048x80 main_cst_4
  let main_v16 : IVec S2048x80 1 := cmpf .olt main_v14 main_v15
  fn_part1 (F := F) main_arg4 main_arg5 main_arg6 main_v13 main_v16
-- ==== Kernel.lean ====
abbrev S2048x32x256 : Shape := ⟨3, ![2048, 32, 256]⟩
abbrev S2048x80x256 : Shape := ⟨3, ![2048, 80, 256]⟩
abbrev S2048x80 : Shape := ⟨2, ![2048, 80]⟩
abbrev S2048x256 : Shape := ⟨2, ![2048, 256]⟩
abbrev S2048x32x80 : Shape := ⟨3, ![2048, 32, 80]⟩
abbrev S64x32x256 : Shape := ⟨3, ![64, 32, 256]⟩
abbrev S64x80x256 : Shape := ⟨3, ![64, 80, 256]⟩
abbrev S64x80 : Shape := ⟨2, ![64, 80]⟩
abbrev S64x256 : Shape := ⟨2, ![64, 256]⟩
abbrev S64x32x80 : Shape := ⟨3, ![64, 32, 80]⟩
abbrev S64x256x32 : Shape := ⟨3, ![64, 256, 32]⟩
abbrev S64x256x1 : Shape := ⟨3, ![64, 256, 1]⟩
abbrev S64x80x32 : Shape := ⟨3, ![64, 80, 32]⟩
abbrev S64x80x1 : Shape := ⟨3, ![64, 80, 1]⟩

abbrev nBuf : Space → Nat
  | .hbm => 8
  | .vmem => 16
  | .smem => 0
  | _ => 0

abbrev bufTy : (tb : Table) → Fin (tcTables nBuf tb) → BufTy
  | .hbm, ⟨0, _⟩ => ⟨S2048x32x256, .f32⟩
  | .hbm, ⟨1, _⟩ => ⟨S2048x80x256, .f32⟩
  | .hbm, ⟨2, _⟩ => ⟨S2048x80, .f32⟩
  | .hbm, ⟨3, _⟩ => ⟨S2048x80, .f32⟩
  | .hbm, ⟨4, _⟩ => ⟨S2048x80, .f32⟩
  | .hbm, ⟨5, _⟩ => ⟨S2048x256, .f32⟩
  | .hbm, ⟨6, _⟩ => ⟨S2048x80, .f32⟩
  | .hbm, ⟨7, _⟩ => ⟨S2048x32x80, .f32⟩
  | .local _ .vmem, ⟨0, _⟩ => ⟨S64x32x256, .f32⟩
  | .local _ .vmem, ⟨1, _⟩ => ⟨S64x32x256, .f32⟩
  | .local _ .vmem, ⟨2, _⟩ => ⟨S64x80x256, .f32⟩
  | .local _ .vmem, ⟨3, _⟩ => ⟨S64x80x256, .f32⟩
  | .local _ .vmem, ⟨4, _⟩ => ⟨S64x80, .f32⟩
  | .local _ .vmem, ⟨5, _⟩ => ⟨S64x80, .f32⟩
  | .local _ .vmem, ⟨6, _⟩ => ⟨S64x80, .f32⟩
  | .local _ .vmem, ⟨7, _⟩ => ⟨S64x80, .f32⟩
  | .local _ .vmem, ⟨8, _⟩ => ⟨S64x80, .f32⟩
  | .local _ .vmem, ⟨9, _⟩ => ⟨S64x80, .f32⟩
  | .local _ .vmem, ⟨10, _⟩ => ⟨S64x256, .f32⟩
  | .local _ .vmem, ⟨11, _⟩ => ⟨S64x256, .f32⟩
  | .local _ .vmem, ⟨12, _⟩ => ⟨S64x80, .f32⟩
  | .local _ .vmem, ⟨13, _⟩ => ⟨S64x80, .f32⟩
  | .local _ .vmem, ⟨14, _⟩ => ⟨S64x32x80, .f32⟩
  | .local _ .vmem, ⟨15, _⟩ => ⟨S64x32x80, .f32⟩
  | _, _ => ⟨S2048x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x80x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x32x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S64x32x256_S64x32x256_0_0_0 : ∀ a, (![0, 0, 0] : Fin 3 → Nat) a + S64x32x256.size a ≤ S64x32x256.size a
  h_S64x32x256 : 0 < S64x32x256.numel
  transposes_S64x32x256_p0_2_1_S64x256x32 : S64x32x256.Transposes [0, 2, 1] S64x256x32
  inb_S64x256_S64x256_0_0 : ∀ a, (![0, 0] : Fin 2 → Nat) a + S64x256.size a ≤ S64x256.size a
  h_S64x256 : 0 < S64x256.numel
  shapeCasts_S64x256_S64x256x1 : S64x256.ShapeCasts S64x256x1
  broadcasts_S64x256x1_S64x256x32 : S64x256x1.Broadcasts S64x256x32
  bitsLt_bf16_f32 : FTy.bits .bf16 < FTy.bits .f32
  inb_S64x80x256_S64x80x256_0_0_0 : ∀ a, (![0, 0, 0] : Fin 3 → Nat) a + S64x80x256.size a ≤ S64x80x256.size a
  h_S64x80x256 : 0 < S64x80x256.numel
  inb_S64x80_S64x80_0_0 : ∀ a, (![0, 0] : Fin 2 → Nat) a + S64x80.size a ≤ S64x80.size a
  h_S64x80 : 0 < S64x80.numel
  shapeCasts_S64x80_S64x80x1 : S64x80.ShapeCasts S64x80x1
  broadcasts_S64x80x1_S64x80x32 : S64x80x1.Broadcasts S64x80x32
  reduces_S64x80x32_S64x80 : S64x80x32.Reduces [2] S64x80
  transposes_S64x80x32_p0_2_1_S64x32x80 : S64x80x32.Transposes [0, 2, 1] S64x32x80
  inb_S64x32x80_S64x32x80_0_0_0 : ∀ a, (![0, 0, 0] : Fin 3 → Nat) a + S64x32x80.size a ≤ S64x32x80.size a
  h_S64x32x80 : 0 < S64x32x80.numel
  dot_S64x80x256_S64x256x32_S64x80x32_2_1_1_2_0_0_wf : DotDims.WF S64x80x256 S64x256x32 S64x80x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x256.size a ≤ S2048x32x256.size a
  hwx0_0 : ∀ i : grid0.Coords, EltTy.bits .f32 = 32 ∨ (Rect.block (s := S2048x32x256) S64x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x80x256.size a ≤ S2048x80x256.size a
  hwx0_1 : ∀ i : grid0.Coords, EltTy.bits .f32 = 32 ∨ (Rect.block (s := S2048x80x256) S64x80x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x80.size a ≤ S2048x80.size a
  hwx0_2 : ∀ i : grid0.Coords, EltTy.bits .f32 = 32 ∨ (Rect.block (s := S2048x80) S64x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x80.size a ≤ S2048x80.size a
  hwx0_3 : ∀ i : grid0.Coords, EltTy.bits .f32 = 32 ∨ (Rect.block (s := S2048x80) S64x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x80.size a ≤ S2048x80.size a
  hwx0_4 : ∀ i : grid0.Coords, EltTy.bits .f32 = 32 ∨ (Rect.block (s := S2048x80) S64x80.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S2048x256.size a
  hwx0_5 : ∀ i : grid0.Coords, EltTy.bits .f32 = 32 ∨ (Rect.block (s := S2048x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x80.size a ≤ S2048x80.size a
  hwx0_6 : ∀ i : grid0.Coords, EltTy.bits .f32 = 32 ∨ (Rect.block (s := S2048x80) S64x80.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x32x80.size a ≤ S2048x32x80.size a
  hwx0_7 : ∀ i : grid0.Coords, EltTy.bits .f32 = 32 ∨ (Rect.block (s := S2048x32x80) S64x32x80.size (cc0_transform_7 i) (hinb0_7 i)).WholeWords (EltTy.packing .f32)

variable [Facts₀]

def dot_S64x80x256_S64x256x32_S64x80x32_2_1_1_2_0_0 : DotDims S64x80x256 S64x256x32 S64x80x32 where
  lhsContracting := [2]
  rhsContracting := [1]
  lhsNonContracting := [1]
  rhsNonContracting := [2]
  lhsBatch := [0]
  rhsBatch := [0]
  wf := dot_S64x80x256_S64x256x32_S64x80x32_2_1_1_2_0_0_wf

abbrev win0_0 : Pipeline.Window sig grid0 :=
  Pipeline.Window.ofSpec (Memref.whole main_arg0) S64x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x80x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x80.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x80.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x32x80.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x32x256 : Shape := ⟨3, ![2048, 32, 256]⟩
abbrev S2048x80x256 : Shape := ⟨3, ![2048, 80, 256]⟩
abbrev S2048x80 : Shape := ⟨2, ![2048, 80]⟩
abbrev S2048x256 : Shape := ⟨2, ![2048, 256]⟩
abbrev S2048x1x256 : Shape := ⟨3, ![2048, 1, 256]⟩
abbrev S2048x32x80 : Shape := ⟨3, ![2048, 32, 80]⟩
abbrev S2048x1x80 : Shape := ⟨3, ![2048, 1, 80]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x32x256, .f32⟩
  | .hbm, ⟨1, _⟩ => ⟨S2048x80x256, .f32⟩
  | .hbm, ⟨2, _⟩ => ⟨S2048x80, .f32⟩
  | .hbm, ⟨3, _⟩ => ⟨S2048x80, .f32⟩
  | .hbm, ⟨4, _⟩ => ⟨S2048x80, .f32⟩
  | .hbm, ⟨5, _⟩ => ⟨S2048x256, .f32⟩
  | .hbm, ⟨6, _⟩ => ⟨S2048x80, .f32⟩
  | .hbm, ⟨7, _⟩ => ⟨S2048x1x256, .f32⟩
  | .hbm, ⟨8, _⟩ => ⟨S2048x32x256, .f32⟩
  | .hbm, ⟨9, _⟩ => ⟨S2048x32x256, .f32⟩
  | .hbm, ⟨10, _⟩ => ⟨S2048x32x80, .f32⟩
  | .hbm, ⟨11, _⟩ => ⟨S2048x1x80, .f32⟩
  | .hbm, ⟨12, _⟩ => ⟨S2048x32x80, .f32⟩
  | .hbm, ⟨13, _⟩ => ⟨S2048x32x80, .f32⟩
  | .hbm, ⟨14, _⟩ => ⟨S2048x32x80, .f32⟩
  | .hbm, ⟨15, _⟩ => ⟨S_, .f32⟩
  | .hbm, ⟨16, _⟩ => ⟨S2048x80, .f32⟩
  | .hbm, ⟨17, _⟩ => ⟨S2048x1x80, .f32⟩
  | .hbm, ⟨18, _⟩ => ⟨S_, .f32⟩
  | .hbm, ⟨19, _⟩ => ⟨S2048x1x80, .f32⟩
  | .hbm, ⟨20, _⟩ => ⟨S2048x1x80, .f32⟩
  | .hbm, ⟨21, _⟩ => ⟨S2048x32x80, .f32⟩
  | .hbm, ⟨22, _⟩ => ⟨S2048x32x80, .f32⟩
  | .hbm, ⟨23, _⟩ => ⟨S2048x32x80, .f32⟩
  | .hbm, ⟨24, _⟩ => ⟨S_, .f32⟩
  | .hbm, ⟨25, _⟩ => ⟨S2048x80, .f32⟩
  | .hbm, ⟨26, _⟩ => ⟨S2048x1x80, .f32⟩
  | .hbm, ⟨27, _⟩ => ⟨S_, .f32⟩
  | .hbm, ⟨28, _⟩ => ⟨S2048x1x80, .f32⟩
  | .hbm, ⟨29, _⟩ => ⟨S2048x1x80, .f32⟩
  | .hbm, ⟨30, _⟩ => ⟨S2048x32x80, .f32⟩
  | .hbm, ⟨31, _⟩ => ⟨S2048x32x80, .f32⟩
  | .hbm, ⟨32, _⟩ => ⟨S_, .f32⟩
  | .hbm, ⟨33, _⟩ => ⟨S2048x1x80, .f32⟩
  | .hbm, ⟨34, _⟩ => ⟨S2048x1x80, .f32⟩
  | .hbm, ⟨35, _⟩ => ⟨S2048x1x80, .f32⟩
  | .hbm, ⟨36, _⟩ => ⟨S2048x32x80, .f32⟩
  | .hbm, ⟨37, _⟩ => ⟨S2048x32x80, .f32⟩
  | .hbm, ⟨38, _⟩ => ⟨S2048x1x80, .f32⟩
  | .hbm, ⟨39, _⟩ => ⟨S2048x32x80, .f32⟩
  | .hbm, ⟨40, _⟩ => ⟨S2048x32x80, .f32⟩
  | .hbm, ⟨41, _⟩ => ⟨S2048x1x80, .f32⟩
  | .hbm, ⟨42, _⟩ => ⟨S2048x32x80, .f32⟩
  | .hbm, ⟨43, _⟩ => ⟨S2048x32x80, .f32⟩
  | .hbm, ⟨44, _⟩ => ⟨S2048x1x80, .f32⟩
  | .hbm, ⟨45, _⟩ => ⟨S2048x32x80, .f32⟩
  | .hbm, ⟨46, _⟩ => ⟨S2048x32x80, .f32⟩
  | _, _ => ⟨S2048x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S2048x256_S2048x1x256_0_2 : S2048x256.BroadcastsInDim S2048x1x256 (![0, 2] : Fin 2 → Fin S2048x1x256.rank)
  bcast_S2048x1x256_S2048x32x256_0_1_2 : S2048x1x256.BroadcastsInDim S2048x32x256 (![0, 1, 2] : Fin 3 → Fin S2048x32x256.rank)
  bcast_S2048x80_S2048x1x80_0_2 : S2048x80.BroadcastsInDim S2048x1x80 (![0, 2] : Fin 2 → Fin S2048x1x80.rank)
  bcast_S2048x1x80_S2048x32x80_0_1_2 : S2048x1x80.BroadcastsInDim S2048x32x80 (![0, 1, 2] : Fin 3 → Fin S2048x32x80.rank)
  reducesTo_S2048x32x80_S2048x80_d1 : S2048x32x80.ReducesTo [1] S2048x80
  h_S_ : 0 < S_.numel
  bcast_S_S2048x1x80 : S_.BroadcastsInDim S2048x1x80 (![] : Fin 0 → Fin S2048x1x80.rank)
  dot_S2048x32x256_S2048x80x256_S2048x32x80_2_2_1_1_0_0_wf : DotDims.WF S2048x32x256 S2048x80x256 S2048x32x80 [2] [2] [1] [1] [0] [0]

variable [Facts₀]

def dot_S2048x32x256_S2048x80x256_S2048x32x80_2_2_1_1_0_0 : DotDims S2048x32x256 S2048x80x256 S2048x32x80 where
  lhsContracting := [2]
  rhsContracting := [2]
  lhsNonContracting := [1]
  rhsNonContracting := [1]
  lhsBatch := [0]
  rhsBatch := [0]
  wf := dot_S2048x32x256_S2048x80x256_S2048x32x80_2_2_1_1_0_0_wf

class Facts : Prop extends Facts₀ where

variable [Facts]
-- ==== Proof.NormSpec.lean ====
/-
  THE FUNCTION BOTH PROGRAMS COMPUTE, for one subsystem: a masked linear layer, tanh, and a batch normalisation over the
  batch, on the extended reals.

  One subsystem `s` carries a batch of 32 input rows `xs b` (256 entries each), 80 weight rows `ws o`, an input mask
  `mk` over the 256 entries, and per output feature `o` a bias `bs o`, a scale `gs o`, a shift `bes o` and an output
  mask `oms o`. Then

    act o b  = tanh( Σ_i ws o i · (xs b i · mk i) + bs o )
    mean o   = ( Σ_b act o b ) / 32
    dev o b  = act o b − mean o
    var o    = ( Σ_b dev o b · dev o b ) / 32
    out o b  = ( dev o b · rsqrt(var o + ε) · gs o + bes o ) · oms o

  with 32 and ε the values of the two f32 words both programs spell (`0x42000000`, `0x3727C5AC`); neither word is
  evaluated here, since the same word stands on both sides. The whole result array, indexed (s, b, o), is `out` of
  subsystem `s`'s data at (o, b): `whole`.
-/
import Idealize.ShloMosaic.PureOps.Ideal
import Idealize.ShloMosaic.Lib.ValueIdx

noncomputable section

open scoped BigOperators

namespace Cert.NormSpec

open Idealize.ShloMosaic Idealize.ShloMosaic.ValueIdx

section OneSubsystem

variable (xs : Fin 32 → Fin 256 → EReal) (ws : Fin 80 → Fin 256 → EReal) (mk : Fin 256 → EReal)
  (bs : Fin 80 → EReal)

/-- The activation of feature `o` on batch row `b`: tanh of the masked inner product plus the bias. -/
def act (o : Fin 80) (b : Fin 32) : EReal :=
  Ideal.tanh ((∑ i : Fin 256, ws o i * (xs b i * mk i)) + bs o)

/-- The batch mean of feature `o`. -/
def mean (o : Fin 80) : EReal :=
  Ideal.div (∑ b : Fin 32, act xs ws mk bs o b) (Ideal.ofBits .f32 0x42000000#32)

/-- The deviation of a row's activation from the batch mean. -/
def dev (o : Fin 80) (b : Fin 32) : EReal := act xs ws mk bs o b - mean xs ws mk bs o

/-- The (biased) batch variance of feature `o`. -/
def var (o : Fin 80) : EReal :=
  Ideal.div (∑ b : Fin 32, dev xs ws mk bs o b * dev xs ws mk bs o b) (Ideal.ofBits .f32 0x42000000#32)

/-- The normalised, scaled, shifted and masked activation. -/
def out (gs bes oms : Fin 80 → EReal) (o : Fin 80) (b : Fin 32) : EReal :=
  (dev xs ws mk bs o b * Ideal.rsqrt (var xs ws mk bs o + Ideal.ofBits .f32 0x3727C5AC#32) * gs o + bes o) * oms o

end OneSubsystem

/-- The result array over `n` subsystems, indexed (s, b, o): `out` of subsystem `s`'s slices of the seven argument
    arrays, at feature `o` and batch row `b`. -/
def whole {n : ℕ} (X : (⟨3, ![n, 32, 256]⟩ : Shape).Idx → EReal) (W : (⟨3, ![n, 80, 256]⟩ : Shape).Idx → EReal)
    (Bi Ga Be : (⟨2, ![n, 80]⟩ : Shape).Idx → EReal) (IM : (⟨2, ![n, 256]⟩ : Shape).Idx → EReal)
    (OM : (⟨2, ![n, 80]⟩ : Shape).Idx → EReal) : (⟨3, ![n, 32, 80]⟩ : Shape).Idx → EReal := fun j =>
  out (fun b i => X (ix3 (j 0) b i)) (fun o i => W (ix3 (j 0) o i)) (fun i => IM (ix2 (j 0) i))
    (fun o => Bi (ix2 (j 0) o)) (fun o => Ga (ix2 (j 0) o)) (fun o => Be (ix2 (j 0) o)) (fun o => OM (ix2 (j 0) o))
    (j 2) (j 1)

end Cert.NormSpec
-- ==== Proof.LibColumn3.lean ====
/-
  A trailing unit axis added to a matrix and then spread: the two layout steps by which a per-row quantity of a stack of
  matrices (one number for each pair (p, q)) is set beside every entry (p, q, r) of a rank-3 array.

  * `cast_col_apply`  : the [a, b] array viewed as [a, b, 1] reads, at (p, q, z), the array at (p, q);
  * `bcast_col_apply` : an [a, b, 1] array spread to [a, b, c] reads, at (p, q, r), the array at (p, q, 0);
  * `col_apply`       : the two together — the [a, b] array set beside [a, b, c] reads (p, q) at (p, q, r).

  All three hold for any extents and any element type: a coordinate on an axis of extent one is zero whatever the
  extent's spelling, so the side conditions of the library's read-at-an-index lemmas are arithmetic on the coordinates.
-/
import Idealize.ShloMosaic.Lib.Pipeline.Value
import Idealize.ShloMosaic.Lib.ValueIdx

namespace Idealize.ShloMosaic.Column3

open Idealize.ShloMosaic Idealize.ShloMosaic.ValueIdx

variable {α : Type}

/-- A matrix viewed with a trailing unit axis: position (p, q, z) of [a, b, 1] is position (p, q) of [a, b], because
    the row-major positions agree (z is zero). -/
theorem cast_col_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) := by
  refine shapeCast_apply v h _ _ ?_
  rw [Shape.rowMajor_val_two, Shape.rowMajor_val_three]
  show p.val * b + q.val = (p.val * b + q.val) * 1 + z.val
  have := z.isLt
  omega

/-- A column spread along a new trailing extent: position (p, q, r) of [a, b, c] reads position (p, q, 0) of
    [a, b, 1]. On an axis whose extent happens to be one the coordinate is zero anyway. -/
theorem bcast_col_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h _ _ fun d => ?_
  match d with
  | ⟨0, _⟩ =>
    show p.val = if a = 1 then 0 else p.val
    have := p.isLt
    split <;> omega
  | ⟨1, _⟩ =>
    show q.val = if b = 1 then 0 else q.val
    have := q.isLt
    split <;> omega
  | ⟨2, _⟩ =>
    show (0 : ℕ) = if (1 : ℕ) = 1 then 0 else r.val
    rw [if_pos rfl]

/-- The per-(p, q) quantity set beside every entry of the rank-3 array: at (p, q, r) it is the quantity at (p, q). -/
theorem col_apply {a b c : ℕ} (v : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ v h₁) h₂ (ix3 p q r) = v (ix2 p q) := by
  rw [bcast_col_apply, cast_col_apply]

end Idealize.ShloMosaic.Column3
-- ==== Proof.KernelStages.lean ====
/-
  THE KERNEL BODY'S ARITHMETIC, STAGE BY STAGE, READ AT ONE ENTRY.

  The body works on one block of 64 subsystems laid out (s, o, b): feature `o` on the middle axis and batch row `b` on the
  last. Its value before the output mask is cut here into the stages of the specification — activation, batch mean,
  deviation, batch variance, the normalised and affinely mapped value — each a vector-level definition over variables of
  the blocks' shapes, and each read at an entry (s, o, b) as the specification's function of subsystem `s`'s slices
  of the blocks:

    * the masked batched product  Σ_i W(s,o,i) · (x(s,b,i) · mask(s,i))   (`prod_apply`): the transposed input block
      times the mask set beside it, contracted with the weights over the one contracted axis, the subsystem a batch axis;
    * a sum along the last axis at (s, o) is the sum over b of the entries (s, o, b)   (`rowsum_apply`);
    * a per-(s, o) quantity set beside the block reads (s, o) at (s, o, b)   (the column lemmas).

  The format changes to bf16 are the identity on the extended reals, and the accumulator of the product is the zero word.
-/
import proofs.«113752_j36953898615444_2_alg».proof.Proof.Gen.KernelIdeal.Skeleton
import proofs.«113752_j36953898615444_2_alg».proof.Proof.NormSpec
import proofs.«113752_j36953898615444_2_alg».proof.Proof.LibColumn3
import Idealize.ShloMosaic.PureOps.Ideal.Laws
import Idealize.ShloMosaic.Lib.ValueLayout

noncomputable section

open scoped BigOperators

namespace Cert.KernelIdeal.Stages

open Cert.KernelIdeal Cert.KernelIdeal.Gen Idealize.ShloMosaic Idealize.ShloMosaic.ValueIdx Idealize.ShloMosaic.Column3
open Cert.NormSpec

/-! ## Three reads at an index -/

/-- The product's dimension numbers: subsystem a batch axis, the weight's last axis contracted with the other operand's middle axis. -/
abbrev D₀ : DotDims S64x80x256 S64x256x32 S64x80x32 := dot_S64x80x256_S64x256x32_S64x80x32_2_1_1_2_0_0

/-- The product's operand indices, axis by axis, at an output index `j` and a contraction index `q`: the subsystem is a
    batch axis of both operands, the weight's feature axis and the other operand's last axis are kept, and the weight's
    last axis is contracted with the other operand's middle axis. -/
theorem lhs_ax0 (j : S64x80x32.Idx) (q : D₀.contr.Idx) : (D₀.lhsIdx j q 0).val = (j 0).val := by
  unfold DotDims.lhsIdx
  rw [dif_pos (show (0 : Fin S64x80x256.rank) ∈ D₀.lhsBatch by decide)]
  rfl
theorem lhs_ax1 (j : S64x80x32.Idx) (q : D₀.contr.Idx) : (D₀.lhsIdx j q 1).val = (j 1).val := by
  unfold DotDims.lhsIdx
  rw [dif_neg (show ¬(1 : Fin S64x80x256.rank) ∈ D₀.lhsBatch by decide),
    dif_pos (show (1 : Fin S64x80x256.rank) ∈ D₀.lhsNonContracting by decide)]
  rfl
theorem lhs_ax2 (j : S64x80x32.Idx) (q : D₀.contr.Idx) : (D₀.lhsIdx j q 2).val = (q ⟨0, by decide⟩).val :=
  D₀.lhsIdx_val_of_single rfl j q
theorem rhs_ax0 (j : S64x80x32.Idx) (q : D₀.contr.Idx) : (D₀.rhsIdx j q 0).val = (j 0).val := by
  unfold DotDims.rhsIdx
  rw [dif_pos (show (0 : Fin S64x256x32.rank) ∈ D₀.rhsBatch by decide)]
  rfl
theorem rhs_ax1 (j : S64x80x32.Idx) (q : D₀.contr.Idx) : (D₀.rhsIdx j q 1).val = (q ⟨0, by decide⟩).val :=
  D₀.rhsIdx_val_of_single rfl j q
theorem rhs_ax2 (j : S64x80x32.Idx) (q : D₀.contr.Idx) : (D₀.rhsIdx j q 2).val = (j 2).val := by
  unfold DotDims.rhsIdx
  rw [dif_neg (show ¬(2 : Fin S64x256x32.rank) ∈ D₀.rhsBatch by decide),
    dif_pos (show (2 : Fin S64x256x32.rank) ∈ D₀.rhsNonContracting by decide)]
  rfl

/-- The batched product of the weight block with a [64, 256, 32] block, into the zero accumulator, at (s, o, b): the sum
    over the contracted coordinate `i` of weight (s, o, i) times the other operand at (s, i, b). -/
theorem prod_apply (Lh : FVec Ideal S64x80x256 .bf16) (Rh : FVec Ideal S64x256x32 .bf16) (s : Fin 64) (o : Fin 80)
    (b : Fin 32) :
    matmul D₀ none Lh Rh (constant S64x80x32 .f32 0x00000000#32) (ix3 s o b)
      = ∑ i : Fin 256, Lh (ix3 s o i) * Rh (ix3 s i b) := by
  simp only [matmul]
  rw [Ideal.matmul_constant_zero_apply, ← Equiv.sum_comp (contrEquiv1 D₀ 256 rfl rfl).symm]
  refine Finset.sum_congr rfl fun k _ => ?_
  have hk := contrEquiv1_symm_val D₀ 256 rfl rfl k
  have el : D₀.lhsIdx (ix3 s o b) ((contrEquiv1 D₀ 256 rfl rfl).symm k) = ix3 s o k :=
    funext fun a => Fin.ext (by
      match a with
      | ⟨0, _⟩ => exact lhs_ax0 _ _
      | ⟨1, _⟩ => exact lhs_ax1 _ _
      | ⟨2, _⟩ => exact (lhs_ax2 _ _).trans hk)
  have er : D₀.rhsIdx (ix3 s o b) ((contrEquiv1 D₀ 256 rfl rfl).symm k) = ix3 s k b :=
    funext fun a => Fin.ext (by
      match a with
      | ⟨0, _⟩ => exact rhs_ax0 _ _
      | ⟨1, _⟩ => exact (rhs_ax1 _ _).trans hk
      | ⟨2, _⟩ => exact rhs_ax2 _ _)
  rw [el, er]

/-- The sum along the last axis of a [64, 80, 32] block, from the zero word, at (s, o): the sum over `b` of the entries
    (s, o, b). -/
theorem rowsum_apply (h : FVec Ideal S64x80x32 .f32) (s : Fin 64) (o : Fin 80) :
    multiReduction .add [2] S64x80 h 0x00000000#32 reduces_S64x80x32_S64x80 (.inl rfl) rfl (ix2 s o)
      = ∑ b : Fin 32, h (ix3 s o b) := by
  refine (Ideal.multiReduction_add_single h 0x00000000#32 reduces_S64x80x32_S64x80 (.inl rfl) rfl (ix2 s o)).trans ?_
  refine Finset.sum_congr rfl fun k _ => congrArg h (funext fun a => Fin.ext ?_)
  match a with
  | ⟨0, _⟩ => rfl
  | ⟨1, _⟩ => rfl
  | ⟨2, _⟩ => rfl

theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl

/-! ## The stages, as vectors -/

/-- The activations of a block: tanh of the masked batched product plus the bias set beside it. -/
def actV (P0 : Vec Ideal S64x32x256 .f32) (P1 : Vec Ideal S64x256 .f32) (P2 : Vec Ideal S64x80x256 .f32)
    (P3 : Vec Ideal S64x80 .f32) : FVec Ideal S64x80x32 .f32 :=
  tanh (addf
    (matmul dot_S64x80x256_S64x256x32_S64x80x32_2_1_1_2_0_0 none (truncf .bf16 P2 bitsLt_bf16_f32)
      (truncf .bf16 (mulf (transpose S64x256x32 [0, 2, 1] P0 transposes_S64x32x256_p0_2_1_S64x256x32)
        (broadcastTo S64x256x32 (shapeCast S64x256x1 P1 shapeCasts_S64x256_S64x256x1) broadcasts_S64x256x1_S64x256x32))
        bitsLt_bf16_f32)
      (constant S64x80x32 .f32 0x00000000#32))
    (broadcastTo S64x80x32 (shapeCast S64x80x1 P3 shapeCasts_S64x80_S64x80x1) broadcasts_S64x80x1_S64x80x32))

/-- The column of sums along the last axis divided by the word for 32. -/
def avgV (h : FVec Ideal S64x80x32 .f32) : FVec Ideal S64x80x1 .f32 :=
  divf (shapeCast S64x80x1 (multiReduction .add [2] S64x80 h 0x00000000#32 reduces_S64x80x32_S64x80 (.inl rfl) rfl)
      shapeCasts_S64x80_S64x80x1)
    (broadcast S64x80x1 (Scalar.ofBits .f32 0x42000000#32))

/-- The deviations from the column of means set beside the block. -/
def devV (h : FVec Ideal S64x80x32 .f32) : FVec Ideal S64x80x32 .f32 :=
  subf h (broadcastTo S64x80x32 (avgV h) broadcasts_S64x80x1_S64x80x32)

/-- The normalised deviations, scaled and shifted by the two per-feature arrays set beside the block. -/
def normV (h : FVec Ideal S64x80x32 .f32) (P4 P5 : Vec Ideal S64x80 .f32) : FVec Ideal S64x80x32 .f32 :=
  addf
    (mulf
      (mulf (devV h)
        (broadcastTo S64x80x32
          (rsqrt (addf (avgV (mulf (devV h) (devV h))) (broadcast S64x80x1 (Scalar.ofBits .f32 0x3727C5AC#32))))
          broadcasts_S64x80x1_S64x80x32))
      (broadcastTo S64x80x32 (shapeCast S64x80x1 P4 shapeCasts_S64x80_S64x80x1) broadcasts_S64x80x1_S64x80x32))
    (broadcastTo S64x80x32 (shapeCast S64x80x1 P5 shapeCasts_S64x80_S64x80x1) broadcasts_S64x80x1_S64x80x32)

/-- The body's value before the output mask is these stages composed. -/
theorem pay2_eq (P0 : Vec Ideal S64x32x256 .f32) (P1 : Vec Ideal S64x256 .f32) (P2 : Vec Ideal S64x80x256 .f32)
    (P3 P4 P5 : Vec Ideal S64x80 .f32) :
    k0_pay2 (F := Ideal) P0 P1 P2 P3 P4 P5 = normV (actV P0 P1 P2 P3) P4 P5 := rfl

/-! ## The stages at an entry -/

section AtEntry

variable (P0 : Vec Ideal S64x32x256 .f32) (P1 : Vec Ideal S64x256 .f32) (P2 : Vec Ideal S64x80x256 .f32)
  (P3 P4 P5 : Vec Ideal S64x80 .f32) (s : Fin 64)

/-- Subsystem `s`'s slices of the blocks. -/
local notation "xs" => fun (b : Fin 32) (i : Fin 256) => P0 (ix3 s b i)
local notation "ws" => fun (o : Fin 80) (i : Fin 256) => P2 (ix3 s o i)
local notation "mk" => fun (i : Fin 256) => P1 (ix2 s i)
local notation "bs" => fun (o : Fin 80) => P3 (ix2 s o)

theorem actV_apply (o : Fin 80) (b : Fin 32) : actV P0 P1 P2 P3 (ix3 s o b) = act xs ws mk bs o b := by
  unfold actV act
  rw [tanh_apply, addf_apply, prod_apply, col_apply]
  refine congrArg (fun z => Ideal.tanh (z + P3 (ix2 s o))) (Finset.sum_congr rfl fun i _ => ?_)
  rw [truncf_apply, truncf_apply, mulf_apply, transpose_ix3_021_apply, col_apply]

theorem avgV_apply (h : FVec Ideal S64x80x32 .f32) (o : Fin 80) (z : Fin 1) :
    avgV h (ix3 s o z) = Ideal.div (∑ b : Fin 32, h (ix3 s o b)) (Ideal.ofBits .f32 0x42000000#32) := by
  unfold avgV
  rw [divf_apply, cast_col_apply, rowsum_apply]
  rfl

theorem devV_apply (h : FVec Ideal S64x80x32 .f32) (o : Fin 80) (b : Fin 32) :
    devV h (ix3 s o b) = h (ix3 s o b) - Ideal.div (∑ b : Fin 32, h (ix3 s o b)) (Ideal.ofBits .f32 0x42000000#32) := by
  unfold devV
  rw [subf_apply, bcast_col_apply, avgV_apply]

theorem devV_act (o : Fin 80) (b : Fin 32) : devV (actV P0 P1 P2 P3) (ix3 s o b) = dev xs ws mk bs o b := by
  rw [devV_apply]
  unfold dev mean
  simp only [actV_apply]

theorem normV_apply (o : Fin 80) (b : Fin 32) :
    normV (actV P0 P1 P2 P3) P4 P5 (ix3 s o b)
      = dev xs ws mk bs o b * Ideal.rsqrt (var xs ws mk bs o + Ideal.ofBits .f32 0x3727C5AC#32) * P4 (ix2 s o)
        + P5 (ix2 s o) := by
  unfold normV
  rw [addf_apply, mulf_apply, mulf_apply, col_apply, col_apply, bcast_col_apply, rsqrt_apply, addf_apply, avgV_apply,
    devV_act]
  unfold var
  simp only [mulf_apply, devV_act]
  rfl

end AtEntry

end Cert.KernelIdeal.Stages
-- ==== Proof.KernelArray.lean ====
/-
  FROM BLOCKS TO THE WHOLE ARRAY.

  The grid has 32 points; point `t` works on subsystems 64·t … 64·t + 63 of every argument array (whole extents on the
  other axes) and writes back rows 64·t … 64·t + 63 of the result. What a point writes back is, entry by entry, the
  specification's function of the subsystem's slices of the point's input blocks; a block's entry (s, ·, ·) IS the
  array's entry (64·t + s, ·, ·); and every row of the result lies in the block of the point `row / 64`. Hence the result
  array after the run is the specification's `whole` of the argument arrays as launched.
-/
import proofs.«113752_j36953898615444_2_alg».proof.Proof.Gen.KernelIdeal.Value
import proofs.«113752_j36953898615444_2_alg».proof.Proof.KernelStages

noncomputable section

open scoped BigOperators

namespace Cert.KernelIdeal.Whole

open Cert.KernelIdeal Cert.KernelIdeal.Gen Cert.KernelIdeal.Stages Idealize.ShloMosaic Idealize.ShloMosaic.TcCoe
  Idealize.SL.Sem Idealize.ShloMosaic.ValueIdx
open Idealize.ShloMosaic.Pipeline (Dat)
open Cert.NormSpec

/-! ## One block entry -/

/-- What a point leaves in its output block at (s, b, o): the specification's `out` of subsystem `s`'s slices of the
    seven input blocks — the transposed, masked value of the stages. -/
theorem block_apply (P0 : Vec Ideal S64x32x256 .f32) (P1 : Vec Ideal S64x256 .f32) (P2 : Vec Ideal S64x80x256 .f32)
    (P3 P4 P5 P6 : Vec Ideal S64x80 .f32) (s : Fin 64) (b : Fin 32) (o : Fin 80) :
    Value.E7 P0 P1 P2 P3 P4 P5 P6 (ix3 s b o)
      = out (fun b i => P0 (ix3 s b i)) (fun o i => P2 (ix3 s o i)) (fun i => P1 (ix2 s i)) (fun o => P3 (ix2 s o))
          (fun o => P4 (ix2 s o)) (fun o => P5 (ix2 s o)) (fun o => P6 (ix2 s o)) o b := by
  have e0 : Value.ix7_0 (ix3 s b o) = ix3 s o b := funext fun a => by
    match a with | ⟨0, _⟩ => rfl | ⟨1, _⟩ => rfl | ⟨2, _⟩ => rfl
  have e1 : Value.ix7_1 (ix3 s b o) = ix2 s o := funext fun a => by
    match a with | ⟨0, _⟩ => rfl | ⟨1, _⟩ => rfl
  show FloatOps.mulf (k0_pay2 P0 P1 P2 P3 P4 P5 (Value.ix7_0 (ix3 s b o))) (P6 (Value.ix7_1 (ix3 s b o))) = _
  rw [e0, e1, pay2_eq, normV_apply]
  rfl

variable (m : (ℓ : Loc nD τ sig) → Buf (Elt Ideal) ℓ) (ρ : Dev nD → PrngReg)

/-! ## The index maps -/

theorem hz3 : (![0, 0, 0] : Fin 3 → Nat) = fun _ => 0 := funext fun a => by fin_cases a <;> rfl
theorem hz2 : (![0, 0] : Fin 2 → Nat) = fun _ => 0 := funext fun a => by fin_cases a <;> rfl

/-- Every window's block index at point `t` is `t` on the subsystem axis and 0 on the others (decided over the 32 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

/-- The subsystem that row `s` of point `t`'s blocks holds. -/
def row (t : Fin cfg0.N) (s : Fin 64) : Fin 2048 :=
  ⟨t.val * 64 + s.val, by have ht : t.val < 32 := t.isLt; have hs := s.isLt; omega⟩

/-! ## A block's entry is the array's -/

section Reads
variable (c : Dev nD) (t : Fin cfg0.N) (s : Fin 64)

theorem read0 (b : Fin 32) (i : Fin 256) :
    iblk m c 0 t (ix3 s b i : S64x32x256.Idx) = V m c main_arg0 (ix3 (row t s) b i : S2048x32x256.Idx) := by
  obtain ⟨⟨e0, e1, e2⟩, -⟩ := idx_facts t
  show V m c main_arg0 (((cfg0.win 0).blk t).view.emb (ix3 s b i : S64x32x256.Idx)) = _
  refine congrArg (V m c main_arg0) (funext fun a => Fin.ext ?_)
  match a with
  | ⟨0, _⟩ => show win0_0.index t (0 : Fin 3) * 64 + 1 * s.val = t.val * 64 + s.val; omega
  | ⟨1, _⟩ => show win0_0.index t (1 : Fin 3) * 32 + 1 * b.val = b.val; omega
  | ⟨2, _⟩ => show win0_0.index t (2 : Fin 3) * 256 + 1 * i.val = i.val; omega

theorem read1 (o : Fin 80) (i : Fin 256) :
    iblk m c 1 t (ix3 s o i : S64x80x256.Idx) = V m c main_arg1 (ix3 (row t s) o i : S2048x80x256.Idx) := by
  obtain ⟨-, ⟨e0, e1, e2⟩, -⟩ := idx_facts t
  show V m c main_arg1 (((cfg0.win 1).blk t).view.emb (ix3 s o i : S64x80x256.Idx)) = _
  refine congrArg (V m c main_arg1) (funext fun a => Fin.ext ?_)
  match a with
  | ⟨0, _⟩ => show win0_1.index t (0 : Fin 3) * 64 + 1 * s.val = t.val * 64 + s.val; omega
  | ⟨1, _⟩ => show win0_1.index t (1 : Fin 3) * 80 + 1 * o.val = o.val; omega
  | ⟨2, _⟩ => show win0_1.index t (2 : Fin 3) * 256 + 1 * i.val = i.val; omega

theorem read2 (o : Fin 80) :
    iblk m c 2 t (ix2 s o : S64x80.Idx) = V m c main_arg2 (ix2 (row t s) o : S2048x80.Idx) := by
  obtain ⟨-, -, ⟨e0, e1⟩, -⟩ := idx_facts t
  show V m c main_arg2 (((cfg0.win 2).blk t).view.emb (ix2 s o : S64x80.Idx)) = _
  refine congrArg (V m c main_arg2) (funext fun a => Fin.ext ?_)
  match a with
  | ⟨0, _⟩ => show win0_2.index t (0 : Fin 2) * 64 + 1 * s.val = t.val * 64 + s.val; omega
  | ⟨1, _⟩ => show win0_2.index t (1 : Fin 2) * 80 + 1 * o.val = o.val; omega

theorem read3 (o : Fin 80) :
    iblk m c 3 t (ix2 s o : S64x80.Idx) = V m c main_arg3 (ix2 (row t s) o : S2048x80.Idx) := by
  obtain ⟨-, -, -, ⟨e0, e1⟩, -⟩ := idx_facts t
  show V m c main_arg3 (((cfg0.win 3).blk t).view.emb (ix2 s o : S64x80.Idx)) = _
  refine congrArg (V m c main_arg3) (funext fun a => Fin.ext ?_)
  match a with
  | ⟨0, _⟩ => show win0_3.index t (0 : Fin 2) * 64 + 1 * s.val = t.val * 64 + s.val; omega
  | ⟨1, _⟩ => show win0_3.index t (1 : Fin 2) * 80 + 1 * o.val = o.val; omega

theorem read4 (o : Fin 80) :
    iblk m c 4 t (ix2 s o : S64x80.Idx) = V m c main_arg4 (ix2 (row t s) o : S2048x80.Idx) := by
  obtain ⟨-, -, -, -, ⟨e0, e1⟩, -⟩ := idx_facts t
  show V m c main_arg4 (((cfg0.win 4).blk t).view.emb (ix2 s o : S64x80.Idx)) = _
  refine congrArg (V m c main_arg4) (funext fun a => Fin.ext ?_)
  match a with
  | ⟨0, _⟩ => show win0_4.index t (0 : Fin 2) * 64 + 1 * s.val = t.val * 64 + s.val; omega
  | ⟨1, _⟩ => show win0_4.index t (1 : Fin 2) * 80 + 1 * o.val = o.val; omega

theorem read5 (i : Fin 256) :
    iblk m c 5 t (ix2 s i : S64x256.Idx) = V m c main_arg5 (ix2 (row t s) i : S2048x256.Idx) := by
  obtain ⟨-, -, -, -, -, ⟨e0, e1⟩, -⟩ := idx_facts t
  show V m c main_arg5 (((cfg0.win 5).blk t).view.emb (ix2 s i : S64x256.Idx)) = _
  refine congrArg (V m c main_arg5) (funext fun a => Fin.ext ?_)
  match a with
  | ⟨0, _⟩ => show win0_5.index t (0 : Fin 2) * 64 + 1 * s.val = t.val * 64 + s.val; omega
  | ⟨1, _⟩ => show win0_5.index t (1 : Fin 2) * 256 + 1 * i.val = i.val; omega

theorem read6 (o : Fin 80) :
    iblk m c 6 t (ix2 s o : S64x80.Idx) = V m c main_arg6 (ix2 (row t s) o : S2048x80.Idx) := by
  obtain ⟨-, -, -, -, -, -, ⟨e0, e1⟩, -⟩ := idx_facts t
  show V m c main_arg6 (((cfg0.win 6).blk t).view.emb (ix2 s o : S64x80.Idx)) = _
  refine congrArg (V m c main_arg6) (funext fun a => Fin.ext ?_)
  match a with
  | ⟨0, _⟩ => show win0_6.index t (0 : Fin 2) * 64 + 1 * s.val = t.val * 64 + s.val; omega
  | ⟨1, _⟩ => show win0_6.index t (1 : Fin 2) * 80 + 1 * o.val = o.val; omega

/-- Where entry (s, b, o) of point `t`'s output block lies in the result array. -/
theorem emb7 (b : Fin 32) (o : Fin 80) :
    ((cfg0.win 7).blk t).view.emb (ix3 s b o : S64x32x80.Idx) = (ix3 (row t s) b o : S2048x32x80.Idx) := by
  obtain ⟨-, -, -, -, -, -, -, ⟨e0, e1, e2⟩⟩ := idx_facts t
  refine funext fun a => Fin.ext ?_
  match a with
  | ⟨0, _⟩ => show win0_7.index t (0 : Fin 3) * 64 + 1 * s.val = t.val * 64 + s.val; omega
  | ⟨1, _⟩ => show win0_7.index t (1 : Fin 3) * 32 + 1 * b.val = b.val; omega
  | ⟨2, _⟩ => show win0_7.index t (2 : Fin 3) * 80 + 1 * o.val = o.val; omega

end Reads

/-! ## The result array -/

/-- The specification's function of the argument arrays as the region finds them. -/
def G (c : Dev nD) : S2048x32x80.Idx → EReal :=
  whole (n := 2048) (V m c main_arg0) (V m c main_arg1) (V m c main_arg2) (V m c main_arg3) (V m c main_arg4)
    (V m c main_arg5) (V m c main_arg6)

/-- What point `t` writes back is block `t` of `G`. -/
theorem flushed_eq (c : Dev nD) (t : Fin cfg0.N) :
    (dats m 0 c).flushed 7 t = ((cfg0.win 7).blk t).view.read (Elt Ideal) (G m c) := by
  rw [Value.flushed7]
  funext y
  show out0_7 (iblk m c 0 t) (iblk m c 1 t) (iblk m c 2 t) (iblk m c 3 t) (iblk m c 4 t) (iblk m c 5 t) (iblk m c 6 t) y
    = G m c (((cfg0.win 7).blk t).view.emb y)
  unfold out0_7
  simp only [View.ld_unit_zero (S := S64x32x256) hz3, View.ld_unit_zero (S := S64x256) hz2,
    View.ld_unit_zero (S := S64x80x256) hz3, View.ld_unit_zero (S := S64x80) hz2]
  refine (Value.canon7_eq (iblk m c 0 t) (iblk m c 5 t) (iblk m c 1 t) (iblk m c 2 t) (iblk m c 3 t) (iblk m c 4 t)
    (iblk m c 6 t) y).trans ?_
  obtain ⟨s, b, o, rfl⟩ : ∃ (s : Fin 64) (b : Fin 32) (o : Fin 80), y = ix3 s b o := ⟨y 0, y 1, y 2, eq_ix3 y⟩
  rw [block_apply, emb7]
  unfold G whole
  simp only [read0, read1, read2, read3, read4, read5, read6]

/-- An index of the result array lies in point `t`'s block iff each coordinate is in the block's range on its axis. -/
theorem mem_blk (t : Fin cfg0.N) (i : S2048x32x80.Idx) :
    i ∈ ((cfg0.win 7).blk t).view.set ↔ ∀ a : Fin 3, win0_7.index t a * S64x32x80.size a ≤ (i a).val
      ∧ (i a).val < win0_7.index t a * S64x32x80.size a + S64x32x80.size a := by
  show i ∈ ((View.whole main_v0).slice (win0_7.rect t)).set ↔ _
  rw [View.set_slice_whole, Rect.mem_set_unit]
  exact Iff.rfl

/-- Every index of the result array lies in the block of the point `row / 64`. -/
theorem cover (i : S2048x32x80.Idx) :
    ∃ t : Fin cfg0.N, (cfg0.win 7).flush t = true ∧ i ∈ ((cfg0.win 7).blk t).view.set := by
  have hi0 : (i 0).val < 2048 := (i 0).isLt
  have hi1 : (i 1).val < 32 := (i 1).isLt
  have hi2 : (i 2).val < 80 := (i 2).isLt
  have ht : (i 0).val / 64 < cfg0.N := by show (i 0).val / 64 < 32; omega
  refine ⟨⟨(i 0).val / 64, ht⟩, flush0_7 _, ?_⟩
  obtain ⟨-, -, -, -, -, -, -, ⟨e0, e1, e2⟩⟩ := idx_facts ⟨(i 0).val / 64, ht⟩
  have e0' : win0_7.index ⟨(i 0).val / 64, ht⟩ (0 : Fin 3) = (i 0).val / 64 := e0
  rw [mem_blk]
  intro a
  match a with
  | ⟨0, _⟩ =>
    show win0_7.index ⟨(i 0).val / 64, ht⟩ (0 : Fin 3) * 64 ≤ (i 0).val
      ∧ (i 0).val < win0_7.index ⟨(i 0).val / 64, ht⟩ (0 : Fin 3) * 64 + 64
    omega
  | ⟨1, _⟩ =>
    show win0_7.index ⟨(i 0).val / 64, ht⟩ (1 : Fin 3) * 32 ≤ (i 1).val
      ∧ (i 1).val < win0_7.index ⟨(i 0).val / 64, ht⟩ (1 : Fin 3) * 32 + 32
    omega
  | ⟨2, _⟩ =>
    show win0_7.index ⟨(i 0).val / 64, ht⟩ (2 : Fin 3) * 80 ≤ (i 2).val
      ∧ (i 2).val < win0_7.index ⟨(i 0).val / 64, ht⟩ (2 : Fin 3) * 80 + 80
    omega

/-- The result array after the run is the specification's function of the argument arrays. -/
theorem final (c : Dev nD) : (dats m 0 c).arrAt 7 cfg0.N = G m c :=
  (dats m 0 c).arrAt_eq_of_cover 7 (G m c) (fun t _ => flushed_eq m c t) (cover)

/-- The kernel's run: the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole
-- ==== Proof.RefStages.lean ====
/-
  THE REFERENCE, STAGE BY STAGE, READ AT ONE ENTRY.

  The reference works on the whole arrays laid out (s, b, o). Each of its operations is read at an index by the generated
  read-at-an-index lemmas; here the stages of the specification are recognised in them. At (s, b, o):

    * the activation is tanh of Σ_i (x(s,b,i) · mask(s,i)) · W(s,o,i) + bias(s,o) — the specification's with the two factors of
      each product exchanged (multiplication of extended reals commutes);
    * the batch mean at (s, ·, o) is (0 + Σ_b activation(s,b,o)) / 32, the zero being the initial value of the host's sum;
    * deviation, variance and the final affine map follow the specification literally.

  So the reference's result array is the specification's `whole` of the seven argument arrays.
-/
import proofs.«113752_j36953898615444_2_alg».proof.Proof.Gen.ReferenceIdeal.Read
import proofs.«113752_j36953898615444_2_alg».proof.Proof.NormSpec

noncomputable section

open scoped BigOperators

namespace Cert.ReferenceIdeal.Stages

open Cert.ReferenceIdeal Cert.ReferenceIdeal.Gen Cert.ReferenceIdeal.Read Idealize.ShloMosaic Idealize.ShloMosaic.ValueIdx
open Cert.NormSpec

variable (x0 : (⟨S2048x32x256, .f32⟩ : BufTy).Contents (Elt Ideal)) (x1 : (⟨S2048x80x256, .f32⟩ : BufTy).Contents (Elt Ideal))
  (x2 x3 x4 : (⟨S2048x80, .f32⟩ : BufTy).Contents (Elt Ideal)) (x5 : (⟨S2048x256, .f32⟩ : BufTy).Contents (Elt Ideal))
  (x6 : (⟨S2048x80, .f32⟩ : BufTy).Contents (Elt Ideal)) (s : Fin 2048)

/-- Subsystem `s`'s slices of the argument arrays. -/
local notation "xs" => fun (b : Fin 32) (i : Fin 256) => x0 (ix3 s b i)
local notation "ws" => fun (o : Fin 80) (i : Fin 256) => x1 (ix3 s o i)
local notation "mk" => fun (i : Fin 256) => x5 (ix2 s i)
local notation "bs" => fun (o : Fin 80) => x2 (ix2 s o)

/-- The activation at (s, b, o). -/
theorem act_at (b : Fin 32) (o : Fin 80) : val_main_v7 (F := Ideal) x0 x1 x2 x5 (ix3 s b o) = act xs ws mk bs o b := by
  have e1 : ∀ k : Fin 256, lidx_main_v3 (ix3 s b o) k = ix3 s b k := fun k => funext fun a => by
    match a with | ⟨0, _⟩ => rfl | ⟨1, _⟩ => rfl | ⟨2, _⟩ => rfl
  have e2 : ∀ k : Fin 256, ridx_main_v3 (ix3 s b o) k = ix3 s o k := fun k => funext fun a => by
    match a with | ⟨0, _⟩ => rfl | ⟨1, _⟩ => rfl | ⟨2, _⟩ => rfl
  have e3 : ∀ k : Fin 256, idx_main_v0 (idx_main_v1 (ix3 s b k)) = ix2 s k := fun k => funext fun a => by
    match a with | ⟨0, _⟩ => rfl | ⟨1, _⟩ => rfl
  have e4 : idx_main_v4 (idx_main_v5 (ix3 s b o)) = ix2 s o := funext fun a => by
    match a with | ⟨0, _⟩ => rfl | ⟨1, _⟩ => rfl
  rw [val_main_v7_apply, val_main_v6_apply, val_main_v3_apply, val_main_v5_apply, val_main_v4_apply, e4]
  simp only [val_main_v2_apply, val_main_v1_apply, val_main_v0_apply, e1, e2, e3]
  unfold act
  refine congrArg (fun z => Ideal.tanh (z + x2 (ix2 s o))) (Finset.sum_congr rfl fun k _ => ?_)
  exact mul_comm _ _

/-- The batch mean at (s, ·, o). -/
theorem mean_at (z : Fin 1) (o : Fin 80) : val_main_v11 (F := Ideal) x0 x1 x2 x5 (ix3 s z o) = mean xs ws mk bs o := by
  have e1 : ∀ k : Fin 32, idx_main_v8 (idx_main_v9 (ix3 s z o)) k = ix3 s k o := fun k => funext fun a => by
    match a with | ⟨0, _⟩ => rfl | ⟨1, _⟩ => rfl | ⟨2, _⟩ => rfl
  rw [val_main_v11_apply, val_main_v9_apply, val_main_v8_apply, val_main_v10_apply, val_main_cst_0_apply,
    val_main_cst_apply]
  simp only [e1, act_at]
  unfold mean
  rw [Ideal.ofBits_def, Ideal.ofBits_zero_f32, zero_add]
  rfl

/-- The deviation at (s, b, o), as the reference computes it for the variance … -/
theorem dev_at (b : Fin 32) (o : Fin 80) : val_main_v13 (F := Ideal) x0 x1 x2 x5 (ix3 s b o) = dev xs ws mk bs o b := by
  have e1 : idx_main_v12 (ix3 s b o) = ix3 s 0 o := funext fun a => by
    match a with | ⟨0, _⟩ => rfl | ⟨1, _⟩ => rfl | ⟨2, _⟩ => rfl
  rw [val_main_v13_apply, val_main_v12_apply, e1, act_at, mean_at]
  rfl

/-- … and again for the normalised value. -/
theorem dev_at' (b : Fin 32) (o : Fin 80) : val_main_v20 (F := Ideal) x0 x1 x2 x5 (ix3 s b o) = dev xs ws mk bs o b := by
  have e1 : idx_main_v19 (ix3 s b o) = ix3 s 0 o := funext fun a => by
    match a with | ⟨0, _⟩ => rfl | ⟨1, _⟩ => rfl | ⟨2, _⟩ => rfl
  rw [val_main_v20_apply, val_main_v19_apply, e1, act_at, mean_at]
  rfl

/-- The batch variance at (s, ·, o). -/
theorem var_at (z : Fin 1) (o : Fin 80) : val_main_v18 (F := Ideal) x0 x1 x2 x5 (ix3 s z o) = var xs ws mk bs o := by
  have e1 : ∀ k : Fin 32, idx_main_v15 (idx_main_v16 (ix3 s z o)) k = ix3 s k o := fun k => funext fun a => by
    match a with | ⟨0, _⟩ => rfl | ⟨1, _⟩ => rfl | ⟨2, _⟩ => rfl
  rw [val_main_v18_apply, val_main_v16_apply, val_main_v15_apply, val_main_v17_apply, val_main_cst_2_apply,
    val_main_cst_1_apply]
  simp only [e1, val_main_v14_apply, dev_at]
  unfold var
  rw [Ideal.ofBits_def, Ideal.ofBits_zero_f32, zero_add]
  rfl

/-- The result at (s, b, o). -/
theorem out_at (b : Fin 32) (o : Fin 80) :
    val_main_v34 (F := Ideal) x0 x1 x2 x3 x4 x5 x6 (ix3 s b o)
      = out xs ws mk bs (fun o => x3 (ix2 s o)) (fun o => x4 (ix2 s o)) (fun o => x6 (ix2 s o)) o b := by
  have e1 : idx_main_v24 (ix3 s b o) = ix3 s 0 o := funext fun a => by
    match a with | ⟨0, _⟩ => rfl | ⟨1, _⟩ => rfl | ⟨2, _⟩ => rfl
  have e2 : idx_main_v26 (idx_main_v27 (ix3 s b o)) = ix2 s o := funext fun a => by
    match a with | ⟨0, _⟩ => rfl | ⟨1, _⟩ => rfl
  have e3 : idx_main_v29 (idx_main_v30 (ix3 s b o)) = ix2 s o := funext fun a => by
    match a with | ⟨0, _⟩ => rfl | ⟨1, _⟩ => rfl
  have e4 : idx_main_v32 (idx_main_v33 (ix3 s b o)) = ix2 s o := funext fun a => by
    match a with | ⟨0, _⟩ => rfl | ⟨1, _⟩ => rfl
  rw [val_main_v34_apply, val_main_v33_apply, val_main_v32_apply, e4, val_main_v31_apply, val_main_v30_apply,
    val_main_v29_apply, e3, val_main_v28_apply, val_main_v27_apply, val_main_v26_apply, e2, val_main_v25_apply,
    val_main_v24_apply, e1, val_main_v23_apply, val_main_v22_apply, val_main_v21_apply, val_main_cst_3_apply, dev_at',
    var_at]
  rfl

/-- The reference's result array is the specification's function of the seven argument arrays. -/
theorem result_eq : val_main_v34 (F := Ideal) x0 x1 x2 x3 x4 x5 x6 = whole x0 x1 x2 x3 x4 x5 x6 := by
  funext j
  obtain ⟨s, b, o, rfl⟩ : ∃ (s : Fin 2048) (b : Fin 32) (o : Fin 80), j = ix3 s b o := ⟨j 0, j 1, j 2, eq_ix3 j⟩
  rw [out_at]
  rfl

end Cert.ReferenceIdeal.Stages
-- ==== Proof.lean ====
/-
  A grouped masked linear layer, tanh and a batch normalisation over the batch, per subsystem: the kernel against its
  jnp reference, as extended reals.

  For each of 2048 subsystems `s`, with a batch of 32 rows:

    act(s,b,o) = tanh( Σ_i W(s,o,i) · (x(s,b,i) · in_mask(s,i)) + bias(s,o) )
    mean(s,o)  = (Σ_b act(s,b,o)) / 32,        dev = act − mean,        var(s,o) = (Σ_b dev²) / 32
    y(s,b,o)   = ( dev · rsqrt(var + ε) · gamma(s,o) + beta(s,o) ) · out_mask(s,o)

  The kernel computes this on blocks of 64 subsystems, in the layout (s, o, b) with the batch last, and transposes back
  at the store; the reference computes it on the whole arrays in the layout (s, b, o). The two differ only in the order of
  the two factors inside the contracted product (multiplication commutes), in where the zero of a sum sits, and in the
  tiling. Nothing in the argument needs the inputs finite: the sums are taken over the same index sets in both programs,
  the divisor 32 and ε are the same f32 words on both sides, and tanh, rsqrt and the quotient are the same functions of
  the extended reals for the kernel's and the host's operations.

  Modules: NormSpec (the function), KernelStages (the body's arithmetic read at an entry), KernelArray (from the blocks
  to the whole array), RefStages (the reference's operations read at an entry), LibColumn3 (a per-row quantity set beside a
  rank-3 array). The kernel's and the reference's runs and their frames are the generated modules imported below.
-/
import proofs.«113752_j36953898615444_2_alg».proof.Defs
import proofs.«113752_j36953898615444_2_alg».proof.Proof.Gen.Kernel
import proofs.«113752_j36953898615444_2_alg».proof.Proof.Gen.Kernel.Skeleton
import proofs.«113752_j36953898615444_2_alg».proof.Proof.Gen.Kernel.Launch
import proofs.«113752_j36953898615444_2_alg».proof.Proof.Gen.Kernel.Points
import proofs.«113752_j36953898615444_2_alg».proof.Proof.Gen.Kernel.Frame
import proofs.«113752_j36953898615444_2_alg».proof.Proof.Gen.KernelIdeal
import proofs.«113752_j36953898615444_2_alg».proof.Proof.Gen.KernelIdeal.Skeleton
import proofs.«113752_j36953898615444_2_alg».proof.Proof.Gen.KernelIdeal.Launch
import proofs.«113752_j36953898615444_2_alg».proof.Proof.Gen.KernelIdeal.Points
import proofs.«113752_j36953898615444_2_alg».proof.Proof.Gen.KernelIdeal.Frame
import proofs.«113752_j36953898615444_2_alg».proof.Proof.Gen.ReferenceIdeal
import proofs.«113752_j36953898615444_2_alg».proof.Proof.Gen.Pre_finite_inputs
import proofs.«113752_j36953898615444_2_alg».proof.Proof.Gen.KernelIdeal.Value
import proofs.«113752_j36953898615444_2_alg».proof.Proof.Gen.ReferenceIdeal.Run
import proofs.«113752_j36953898615444_2_alg».proof.Proof.Gen.ReferenceIdeal.Read
import proofs.«113752_j36953898615444_2_alg».proof.Proof.KernelArray
import proofs.«113752_j36953898615444_2_alg».proof.Proof.RefStages
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the specification's function of the (agreeing) argument arrays. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v34_eq, Cert.ReferenceIdeal.Stages.result_eq, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
